-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S128x8192 : Shape := ⟨2, ![128, 8192]⟩
abbrev S128 : Shape := ⟨1, ![128]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S128 : S_.BroadcastsInDim S128 (![] : Fin 0 → Fin S128.rank)
  reducesTo_S128_S_d0 : S128.ReducesTo [0] S_
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S128x8192 .f32) (main_arg2 : FVec F S128 .f32) : IVec S_ 1 :=
  let main_v0 : FVec F S128x8192 .f32 := Host.absf main_arg1
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 8192#32
  let main_v11 : IVec S16384 32 := broadcastInDim S16384 ![] bcast_S_S16384 main_c_3
  let main_v12 : IVec S16384 1 := cmpi .slt main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384 : Shape := ⟨1, ![16384]⟩
abbrev S128x8192 : Shape := ⟨2, ![128, 8192]⟩
abbrev S128 : Shape := ⟨1, ![128]⟩
abbrev S_ : Shape := ⟨0, ![]⟩
abbrev S16384x1 : Shape := ⟨2, ![16384, 1]⟩
abbrev S1x128 : Shape := ⟨2, ![1, 128]⟩
abbrev S16384x128 : Shape := ⟨2, ![16384, 128]⟩
abbrev S1024x1 : Shape := ⟨2, ![1024, 1]⟩
abbrev S1024x128 : Shape := ⟨2, ![1024, 128]⟩
abbrev S1024x1024 : Shape := ⟨2, ![1024, 1024]⟩
abbrev S128x1024 : Shape := ⟨2, ![128, 1024]⟩
abbrev S16384x1x128 : Shape := ⟨3, ![16384, 1, 128]⟩

abbrev nBuf : Space → Nat
  | .hbm => 15
  | .vmem => 6
  | .smem => 0
  | _ => 0

abbrev bufTy : (tb : Table) → Fin (tcTables nBuf tb) → BufTy
  | .hbm, ⟨0, _⟩ => ⟨S16384, .i32⟩
  | .hbm, ⟨1, _⟩ => ⟨S128x8192, .f32⟩
  | .hbm, ⟨2, _⟩ => ⟨S128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1x128, .f32⟩
  | .hbm, ⟨13, _⟩ => ⟨S16384x128, .f32⟩
  | .hbm, ⟨14, _⟩ => ⟨S16384x1x128, .f32⟩
  | .local _ .vmem, ⟨0, _⟩ => ⟨S1024x1, .i32⟩
  | .local _ .vmem, ⟨1, _⟩ => ⟨S1024x1, .i32⟩
  | .local _ .vmem, ⟨2, _⟩ => ⟨S128x8192, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384 : S_.BroadcastsInDim S16384 (![] : Fin 0 → Fin S16384.rank)
  shapeCasts_S16384_S16384x1 : S16384.ShapeCasts S16384x1
  shapeCasts_S128_S1x128 : S128.ShapeCasts S1x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  natLt_1_32 : 1 < 32
  bitsLt_bf16_f32 : FTy.bits .bf16 < FTy.bits .f32
  inb_S128x8192_S128x1024_0_0 : ∀ a, (![0, 0] : Fin 2 → Nat) a + S128x1024.size a ≤ S128x8192.size a
  h_S128x1024 : 0 < S128x1024.numel
  inb_S128x8192_S128x1024_0_1024 : ∀ a, (![0, 1024] : Fin 2 → Nat) a + S128x1024.size a ≤ S128x8192.size a
  inb_S128x8192_S128x1024_0_2048 : ∀ a, (![0, 2048] : Fin 2 → Nat) a + S128x1024.size a ≤ S128x8192.size a
  inb_S128x8192_S128x1024_0_3072 : ∀ a, (![0, 3072] : Fin 2 → Nat) a + S128x1024.size a ≤ S128x8192.size a
  inb_S128x8192_S128x1024_0_4096 : ∀ a, (![0, 4096] : Fin 2 → Nat) a + S128x1024.size a ≤ S128x8192.size a
  inb_S128x8192_S128x1024_0_5120 : ∀ a, (![0, 5120] : Fin 2 → Nat) a + S128x1024.size a ≤ S128x8192.size a
  inb_S128x8192_S128x1024_0_6144 : ∀ a, (![0, 6144] : Fin 2 → Nat) a + S128x1024.size a ≤ S128x8192.size a
  inb_S128x8192_S128x1024_0_7168 : ∀ a, (![0, 7168] : Fin 2 → Nat) a + S128x1024.size a ≤ S128x8192.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  bcast_S16384x128_S16384x1x128_0_2 : S16384x128.BroadcastsInDim S16384x1x128 (![0, 2] : Fin 2 → Fin S16384x1x128.rank)
  dot_S1024x1024_S128x1024_S1024x128_1_1_0_0_n_n_wf : DotDims.WF S1024x1024 S128x1024 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .i32 = 32 ∨ (Rect.block (s := S16384x1) S1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .f32 = 32 ∨ (Rect.block (s := S128x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf

abbrev win0_0 : Pipeline.Window sig grid0 :=
  Pipeline.Window.ofSpec (Memref.whole main_v1) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S128x8192 : Shape := ⟨2, ![128, 8192]⟩
abbrev S128 : Shape := ⟨1, ![128]⟩
abbrev S16384x1 : Shape := ⟨2, ![16384, 1]⟩
abbrev S1x8192 : Shape := ⟨2, ![1, 8192]⟩
abbrev S16384x8192 : Shape := ⟨2, ![16384, 8192]⟩
abbrev S16384x128 : Shape := ⟨2, ![16384, 128]⟩
abbrev S1x128 : Shape := ⟨2, ![1, 128]⟩
abbrev S16384x1x128 : Shape := ⟨3, ![16384, 1, 128]⟩

abbrev nBuf : Space → Nat
  | .hbm => 14
  | .vmem => 0
  | .smem => 0
  | _ => 0

abbrev bufTy : (tb : Table) → Fin (tcTables nBuf tb) → BufTy
  | .hbm, ⟨0, _⟩ => ⟨S16384, .i32⟩
  | .hbm, ⟨1, _⟩ => ⟨S128x8192, .f32⟩
  | .hbm, ⟨2, _⟩ => ⟨S128, .f32⟩
  | .hbm, ⟨3, _⟩ => ⟨S16384x1, .i32⟩
  | .hbm, ⟨4, _⟩ => ⟨S1x8192, .i32⟩
  | .hbm, ⟨5, _⟩ => ⟨S16384x8192, .i32⟩
  | .hbm, ⟨6, _⟩ => ⟨S16384x8192, .i32⟩
  | .hbm, ⟨7, _⟩ => ⟨S16384x8192, .i1⟩
  | .hbm, ⟨8, _⟩ => ⟨S16384x8192, .f32⟩
  | .hbm, ⟨9, _⟩ => ⟨S16384x128, .f32⟩
  | .hbm, ⟨10, _⟩ => ⟨S1x128, .f32⟩
  | .hbm, ⟨11, _⟩ => ⟨S16384x128, .f32⟩
  | .hbm, ⟨12, _⟩ => ⟨S16384x128, .f32⟩
  | .hbm, ⟨13, _⟩ => ⟨S16384x1x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S16384x128_S16384x1x128_0_2 : S16384x128.BroadcastsInDim S16384x1x128 (![0, 2] : Fin 2 → Fin S16384x1x128.rank)
  dot_S16384x8192_S128x8192_S16384x128_1_1_0_0_n_n_wf : DotDims.WF S16384x8192 S128x8192 S16384x128 [1] [1] [0] [0] [] []

variable [Facts₀]

def dot_S16384x8192_S128x8192_S16384x128_1_1_0_0_n_n : DotDims S16384x8192 S128x8192 S16384x128 where
  lhsContracting := [1]
  rhsContracting := [1]
  lhsNonContracting := [0]
  rhsNonContracting := [0]
  lhsBatch := []
  rhsBatch := []
  wf := dot_S16384x8192_S128x8192_S16384x128_1_1_0_0_n_n_wf

class Facts : Prop extends Facts₀ where

variable [Facts]
-- ==== Proof.LibOneHot.lean ====
/-
  One-hot sums over 32-bit words, with no program in sight.
  A node's word is the word of the natural number blk·1024 + x. The equality test of a word r against the word of a
  natural n below 2^32 is the one-bit word 1 exactly when r, read unsigned, is n. Hence a sum over all n below a bound N
  of (s if r is the word of n, else 0) times g n has at most one nonzero term: it is s·g(r) when r is below N, and 0
  otherwise. A sum over blocks b and offsets x of f (b·K + x) is the sum of f over the flat index below B·K.
  All sums are in the extended reals; only 0·y = 0, 1·y = y and the commutative monoid laws of + are used.
-/
import Idealize.ShloMosaic.Lib.ValueIdx
import Idealize.ShloMosaic.PureOps.Ideal.Laws

noncomputable section

namespace Cert.LibOneHot

open Idealize.ShloMosaic

/-- The word computed as (word of blk)·1024 + (word of x) is the word of blk·1024 + x. -/
theorem nodeWord_eq (blk x : ℕ) :
    IntOp.addi (Scalar.muli (BitVec.ofNat 32 blk) 1024#32) (BitVec.ofNat 32 x) = BitVec.ofNat 32 (blk * 1024 + x) := by
  show BitVec.ofNat 32 blk * BitVec.ofNat 32 1024 + BitVec.ofNat 32 x = _
  apply BitVec.eq_of_toNat_eq
  simp only [BitVec.toNat_add, BitVec.toNat_mul, BitVec.toNat_ofNat]
  omega

/-- A word equals the word of a natural below 2^32 exactly when its unsigned reading is that natural. -/
theorem eq_ofNat_iff (r : BitVec 32) (n : ℕ) (hn : n < 2 ^ 32) : r = BitVec.ofNat 32 n ↔ r.toNat = n := by
  constructor
  · rintro rfl; simp only [BitVec.toNat_ofNat]; omega
  · intro h; apply BitVec.eq_of_toNat_eq; simp only [BitVec.toNat_ofNat]; omega

/-- The equality bit against the word of a natural below 2^32. -/
theorem cmpi_eq_ofNat (r : BitVec 32) (n : ℕ) (hn : n < 2 ^ 32) :
    IntOp.cmpi .eq r (BitVec.ofNat 32 n) = 1#1 ↔ r.toNat = n := by
  show BitVec.ofBool (r == BitVec.ofNat 32 n) = 1#1 ↔ _
  rw [show (BitVec.ofBool (r == BitVec.ofNat 32 n) = 1#1) ↔ (r == BitVec.ofNat 32 n) = true from by
    cases (r == BitVec.ofNat 32 n) <;> decide]
  rw [beq_iff_eq]
  exact eq_ofNat_iff r n hn

/-- The same with the two words in the other order. -/
theorem cmpi_ofNat_eq (r : BitVec 32) (n : ℕ) (hn : n < 2 ^ 32) :
    IntOp.cmpi .eq (BitVec.ofNat 32 n) r = 1#1 ↔ r.toNat = n := by
  show BitVec.ofBool (BitVec.ofNat 32 n == r) = 1#1 ↔ _
  rw [show (BitVec.ofBool (BitVec.ofNat 32 n == r) = 1#1) ↔ (BitVec.ofNat 32 n == r) = true from by
    cases (BitVec.ofNat 32 n == r) <;> decide]
  rw [beq_iff_eq]
  exact ⟨fun h => (eq_ofNat_iff r n hn).mp h.symm, fun h => ((eq_ofNat_iff r n hn).mpr h).symm⟩

/-- A one-bit word, widened to 32 bits and read as a signed integer, is 1 when the bit is 1 and 0 otherwise. -/
theorem toInt_setWidth_bit (b : BitVec 1) : ((b.setWidth 32).toInt : ℤ) = if b = 1#1 then 1 else 0 := by
  have h : b = 0#1 ∨ b = 1#1 := by
    have := b.isLt
    rcases Nat.lt_or_ge b.toNat 1 with h0 | h1
    · left; apply BitVec.eq_of_toNat_eq; simp only [BitVec.toNat_ofNat]; omega
    · right; apply BitVec.eq_of_toNat_eq; simp only [BitVec.toNat_ofNat]; omega
  rcases h with rfl | rfl <;> decide

/-- A select between a value and zero, by a one-bit word, times a factor. -/
theorem select_mul (b : BitVec 1) (s y : EReal) :
    Scalar.select b s (0 : EReal) * y = if b = 1#1 then s * y else 0 := by
  by_cases h : b = 1#1
  · subst h; rw [if_pos rfl, ValueIdx.select_one]
  · rw [if_neg h, ValueIdx.eq_zero_of_ne_one h, ValueIdx.select_zero, zero_mul]

/-- The widened equality bit of the word of a natural n below 2^32 against a word w, read as a real number, times y: it is
    y when w reads n, and 0 otherwise. -/
theorem bit_mul (n : ℕ) (hn : n < 2 ^ 32) (w : BitVec 32) (y : EReal) :
    ((((IntOp.cmpi .eq (BitVec.ofNat 32 n) w).setWidth 32).toInt : ℝ) : EReal) * y = if w.toNat = n then y else 0 := by
  rw [toInt_setWidth_bit]
  by_cases h : w.toNat = n
  · rw [if_pos ((cmpi_ofNat_eq w n hn).mpr h), if_pos h]; simp
  · rw [if_neg (fun e => h ((cmpi_ofNat_eq w n hn).mp e)), if_neg h]; simp

/-- A one-hot sum collapses to its one term: over n below N (N at most 2^32), the terms
    (s if r is the word of n else 0)·g n add up to s·g(r) when r reads below N, and to 0 otherwise. -/
theorem sum_select_ofNat (N : ℕ) (hN : N ≤ 2 ^ 32) (r : BitVec 32) (s : EReal) (g : Fin N → EReal) :
    ∑ n : Fin N, Scalar.select (IntOp.cmpi .eq r (BitVec.ofNat 32 n.val)) s (0 : EReal) * g n
      = if h : r.toNat < N then s * g ⟨r.toNat, h⟩ else 0 := by
  have hterm : ∀ n : Fin N, Scalar.select (IntOp.cmpi .eq r (BitVec.ofNat 32 n.val)) s (0 : EReal) * g n
      = if r.toNat = n.val then s * g n else 0 := fun n => by
    rw [select_mul]
    exact if_congr (cmpi_eq_ofNat r n.val (lt_of_lt_of_le n.isLt hN)) rfl rfl
  simp only [hterm]
  split
  · next h =>
    rw [Finset.sum_eq_single (⟨r.toNat, h⟩ : Fin N)]
    · simp
    · intro b _ hb
      rw [if_neg]
      intro e; exact hb (Fin.ext e.symm)
    · intro hn; exact absurd (Finset.mem_univ _) hn
  · next h =>
    refine Finset.sum_eq_zero fun n _ => ?_
    rw [if_neg]
    intro e; exact h (e ▸ n.isLt)

/-- A double sum over B blocks of K offsets is the single sum over the flat index b·K + x below B·K. -/
theorem sum_blocks {M : Type*} [AddCommMonoid M] (B K : ℕ) (f : ℕ → M) :
    ∑ b : Fin B, ∑ x : Fin K, f (b.val * K + x.val) = ∑ n : Fin (B * K), f n.val := by
  rw [← Fintype.sum_prod_type', ← Equiv.sum_comp finProdFinEquiv (fun n : Fin (B * K) => f n.val)]
  refine Finset.sum_congr rfl fun p _ => ?_
  show f (p.1.val * K + p.2.val) = f (p.2.val + K * p.1.val)
  congr 1
  ring

end Cert.LibOneHot

end
-- ==== Proof.Mask.lean ====
/-
  Equality bits of 32-bit words read as numbers, and sums masked by them.

  The test "w equals the word of n" gives a one-bit word. Widened to 32 bits and read as a signed integer, or read
  directly as an unsigned integer, that bit is the number 1 when w, read unsigned, is n, and the number 0 otherwise.
  So the bit times y is y when w reads n and 0 otherwise, on the extended reals, for every y (0 · y = 0 also at the
  infinities). A word between 0 and 8191, read signed, is left alone by clamping to that range. Eight consecutive runs
  of 1024 terms, added one after the other onto 0, are the one sum over the 8192 terms.
-/
import proofs.«123506_j56633438765559_2_alg».proof.Proof.LibOneHot
import Idealize.ShloMosaic.Lib.Affine

noncomputable section

namespace Cert.Mask

open Idealize.ShloMosaic

/-- The word of x plus the word of off is the word of x + off. -/
theorem ofNat_add (x off : ℕ) :
    IntOp.addi (BitVec.ofNat 32 x) (BitVec.ofNat 32 off) = BitVec.ofNat 32 (x + off) := by
  show BitVec.ofNat 32 x + BitVec.ofNat 32 off = _
  apply BitVec.eq_of_toNat_eq
  simp only [BitVec.toNat_add, BitVec.toNat_ofNat]
  omega

/-- The equality bit of w against the word of n, widened and read signed, times y. -/
theorem signedBit_mul (w : BitVec 32) (n : ℕ) (hn : n < 2 ^ 32) (y : EReal) :
    ((((IntOp.cmpi .eq w (BitVec.ofNat 32 n)).setWidth 32).toInt : ℝ) : EReal) * y = if w.toNat = n then y else 0 := by
  rw [LibOneHot.toInt_setWidth_bit]
  by_cases h : w.toNat = n
  · rw [if_pos ((LibOneHot.cmpi_eq_ofNat w n hn).mpr h), if_pos h]; simp
  · rw [if_neg (fun e => h ((LibOneHot.cmpi_eq_ofNat w n hn).mp e)), if_neg h]; simp

/-- A one-bit word read unsigned is 1 when the bit is 1 and 0 otherwise. -/
theorem toNat_bit (b : BitVec 1) : b.toNat = if b = 1#1 then 1 else 0 := by
  have h : b = 0#1 ∨ b = 1#1 := by
    have := b.isLt
    rcases Nat.lt_or_ge b.toNat 1 with h0 | h1
    · left; apply BitVec.eq_of_toNat_eq; simp only [BitVec.toNat_ofNat]; omega
    · right; apply BitVec.eq_of_toNat_eq; simp only [BitVec.toNat_ofNat]; omega
  rcases h with rfl | rfl <;> decide

/-- The equality bit of w against the word of n, read unsigned, times y. -/
theorem unsignedBit_mul (w : BitVec 32) (n : ℕ) (hn : n < 2 ^ 32) (y : EReal) :
    (((IntOp.cmpi .eq w (BitVec.ofNat 32 n)).toNat : ℝ) : EReal) * y = if w.toNat = n then y else 0 := by
  rw [toNat_bit]
  by_cases h : w.toNat = n
  · rw [if_pos ((LibOneHot.cmpi_eq_ofNat w n hn).mpr h), if_pos h]; simp
  · rw [if_neg (fun e => h ((LibOneHot.cmpi_eq_ofNat w n hn).mp e)), if_neg h]; simp

/-- A word that reads, signed, at least 0 and below 8192 is its own clamp to the range from 0 to 8191. -/
theorem clamp_id (w : BitVec 32) (h0 : IntOp.cmpi .sge w 0#32 = 1#1) (h1 : IntOp.cmpi .slt w 8192#32 = 1#1) :
    IntOp.minsi 8191#32 (IntOp.maxsi 0#32 w) = w := by
  rw [IntOp.cmpi_sge] at h0
  rw [IntOp.cmpi_slt] at h1
  have e0 : (0#32 : BitVec 32).toInt = 0 := by decide
  have e1 : (8192#32 : BitVec 32).toInt = 8192 := by decide
  have e2 : (8191#32 : BitVec 32).toInt = 8191 := by decide
  rw [e0] at h0
  rw [e1] at h1
  have hmax : IntOp.maxsi 0#32 w = w := by
    unfold IntOp.maxsi
    rw [if_neg]
    rw [BitVec.slt_iff_toInt_lt, e0]
    omega
  rw [hmax]
  unfold IntOp.minsi
  rw [if_neg]
  rw [BitVec.slt_iff_toInt_lt, e2]
  omega

/-- Eight consecutive runs of 1024 terms, added in order onto 0, are the sum of the 8192 terms. -/
theorem eight_runs (f : ℕ → EReal) :
    ((((((((0 + ∑ x : Fin 1024, f (x.val + 0)) + ∑ x : Fin 1024, f (x.val + 1024)) + ∑ x : Fin 1024, f (x.val + 2048))
      + ∑ x : Fin 1024, f (x.val + 3072)) + ∑ x : Fin 1024, f (x.val + 4096)) + ∑ x : Fin 1024, f (x.val + 5120))
      + ∑ x : Fin 1024, f (x.val + 6144)) + ∑ x : Fin 1024, f (x.val + 7168)) = ∑ n : Fin 8192, f n.val := by
  rw [show (8192 : ℕ) = 8 * 1024 from rfl, ← LibOneHot.sum_blocks 8 1024 f, Fin.sum_univ_eight, zero_add]
  have e : ∀ (b c : ℕ), b * 1024 = c → (∑ x : Fin 1024, f (x.val + c)) = ∑ x : Fin 1024, f (b * 1024 + x.val) := by
    intro b c h; subst h; exact Finset.sum_congr rfl fun x _ => by rw [Nat.add_comm]
  rw [e 0 0 rfl, e 1 1024 rfl, e 2 2048 rfl, e 3 3072 rfl, e 4 4096 rfl, e 5 5120 rfl, e 6 6144 rfl, e 7 7168 rfl]
  rfl

end Cert.Mask

end
-- ==== Proof.Spec.lean ====
/-
  What both programs compute, as one function of the three argument arrays.

  Row r of the result is column idx[r] of the weight matrix plus the bias: entry (r, d) is W[d, idx[r]] + b[d]. It is
  written here as a sum over all 8192 columns n of W[d, n] masked by "idx[r] reads n" (the product of a one-hot row
  with the transposed weights), so that no range of idx[r] has to be named: at most one term is not 0.
-/
import Idealize.ShloMosaic.Lib.ValueIdx
import Idealize.ShloMosaic.PureOps.Ideal.Laws

noncomputable section

namespace Cert.Spec

open Idealize.ShloMosaic Idealize.ShloMosaic.ValueIdx

/-- One entry: the sum over the columns n of w n where the word a reads n (0 elsewhere), plus the bias entry. -/
def entry (a : BitVec 32) (w : Fin 8192 → EReal) (bias : EReal) : EReal :=
  (∑ n : Fin 8192, if a.toNat = n.val then w n else 0) + bias

/-- Entry (r, d): the sum over the columns n of W[d, n] where idx[r] reads n (0 elsewhere), plus b[d]. -/
def lookup (idx : IVec (⟨1, ![16384]⟩ : Shape) 32) (W : FVec Ideal (⟨2, ![128, 8192]⟩ : Shape) .f32)
    (b : FVec Ideal (⟨1, ![128]⟩ : Shape) .f32) : FVec Ideal (⟨2, ![16384, 128]⟩ : Shape) .f32 :=
  fun i => entry (idx (ix1 (i 0))) (fun n => W (ix2 (i 1) n)) (b (ix1 (i 1)))

theorem lookup_apply (idx : IVec (⟨1, ![16384]⟩ : Shape) 32) (W : FVec Ideal (⟨2, ![128, 8192]⟩ : Shape) .f32)
    (b : FVec Ideal (⟨1, ![128]⟩ : Shape) .f32) (r : Fin 16384) (d : Fin 128) :
    lookup idx W b (ix2 r d)
      = (∑ n : Fin 8192, if (idx (ix1 r)).toNat = n.val then W (ix2 d n) else 0) + b (ix1 d) := rfl

end Cert.Spec

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The kernel body's result block as a function of its three input blocks, read at an entry.

  The body holds a column of 1024 indices, the whole weight matrix W as 128 rows of 8192 entries and the bias row. It
  cuts the 8192 columns of W into eight runs of 1024. For run number s it builds the 1024 by 1024 matrix whose entry
  (p, x) is 1 when index p reads x + 1024·s and 0 otherwise, multiplies it with the transposed run of W (entry (p, d) of
  the product is the sum over x of that 0/1 entry times W[d, x + 1024·s]), and adds the eight products, in order, onto
  0; then it adds the bias. A change of number format is the identity on the extended reals, so the narrowing of both
  factors does nothing. Each product term is W[d, x + 1024·s] or 0, and the eight runs together are all 8192 columns.
-/
import proofs.«123506_j56633438765559_2_alg».proof.Proof.Gen.KernelIdeal.Frame
import proofs.«123506_j56633438765559_2_alg».proof.Proof.Mask
import proofs.«123506_j56633438765559_2_alg».proof.Proof.Spec
import proofs.«123506_j56633438765559_2_alg».proof.Proof.LibMatmulNT
import proofs.«123506_j56633438765559_2_alg».proof.Proof.LibColumn
import Idealize.ShloMosaic.Lib.ValueLayout

noncomputable section

namespace Cert.KernelIdeal.Payload

open Cert.KernelIdeal Cert.KernelIdeal.Gen
open Idealize.ShloMosaic Idealize.ShloMosaic.ValueIdx

/-- The product's dimension numbers: both operands contracted on their last axis. -/
abbrev D := dot_S1024x1024_S128x1024_S1024x128_1_1_0_0_n_n

theorem lhs0 (i : S1024x128.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs1 (i : S1024x128.Idx) (q : D.contr.Idx) : (D.lhsIdx i q 1).val = (q ⟨0, by decide⟩).val :=
  D.lhsIdx_val_of_single rfl i q
theorem rhs0 (i : S1024x128.Idx) (q : D.contr.Idx) : (D.rhsIdx i q 0).val = (i 1).val := by
  unfold DotDims.rhsIdx
  rw [dif_neg (show ¬(0 : Fin S128x1024.rank) ∈ D.rhsBatch by decide), dif_pos (show (0 : Fin S128x1024.rank) ∈ D.rhsNonContracting by decide)]
  rfl
theorem rhs1 (i : S1024x128.Idx) (q : D.contr.Idx) : (D.rhsIdx i q 1).val = (q ⟨0, by decide⟩).val :=
  D.rhsIdx_val_of_single rfl i q

/-- Entry (p, x) of the 0/1 matrix of the run that starts at column off: the equality bit of index p against the word of
    x + off, widened and read signed. -/
theorem onehot_apply (off : ℕ) (idx : IVec S1024x1 32) (p x : Fin 1024) :
    (truncf .bf16 (sitofp (F := Ideal) .f32 (extui 32 (cmpi .eq (broadcastTo S1024x1024 idx broadcasts_S1024x1_S1024x1024)
        (addi (iota .tc S1024x1024 32 [1] iota_S1024x1024_d1_w32) (broadcast S1024x1024 (BitVec.ofNat 32 off)))) natLt_1_32))
      bitsLt_bf16_f32 : FVec Ideal S1024x1024 .bf16) (ix2 p x)
      = ((((IntOp.cmpi .eq (idx (ix2 p (0 : Fin 1))) (BitVec.ofNat 32 (x.val + off))).setWidth 32).toInt : ℝ) : EReal) := by
  show ((((IntOp.cmpi .eq (broadcastTo S1024x1024 idx broadcasts_S1024x1_S1024x1024 (ix2 p x))
      (IntOp.addi (iota .tc S1024x1024 32 [1] iota_S1024x1024_d1_w32 (ix2 p x)) (BitVec.ofNat 32 off))).setWidth 32).toInt : ℝ) : EReal) = _
  rw [LibColumn.broadcastTo_a1_ab_apply, iota_single_apply, Mask.ofNat_add]

/-- The product of the run that starts at column off: the 0/1 matrix of the indices against the run's column numbers,
    times the transposed run w of the weights, added onto 0. -/
def oneRun (off : ℕ) (idx : IVec S1024x1 32) (w : Vec Ideal S128x1024 .f32) : FVec Ideal S1024x128 .f32 :=
  matmul (F := Ideal) D none
    (truncf .bf16 (sitofp (F := Ideal) .f32 (extui 32 (cmpi .eq (broadcastTo S1024x1024 idx broadcasts_S1024x1_S1024x1024)
      (addi (iota .tc S1024x1024 32 [1] iota_S1024x1024_d1_w32) (broadcast S1024x1024 (BitVec.ofNat 32 off)))) natLt_1_32))
      bitsLt_bf16_f32)
    (truncf .bf16 w bitsLt_bf16_f32) (constant S1024x128 .f32 0x00000000#32)

/-- One run's product read at (p, d): the sum over the run's columns x of W[d, x] where index p reads x + off. -/
theorem run_apply (off : ℕ) (hoff : off + 1024 ≤ 2 ^ 32) (idx : IVec S1024x1 32) (w : Vec Ideal S128x1024 .f32) (p : Fin 1024) (d : Fin 128) :
    oneRun off idx w (ix2 p d)
      = ∑ x : Fin 1024, if (idx (ix2 p (0 : Fin 1))).toNat = x.val + off then w (ix2 d x) else 0 := by
  unfold oneRun
  show FloatOps.matmul D none _ _ (constant S1024x128 .f32 0x00000000#32) (ix2 p d) = _
  rw [LibMatmulNT.matmul_nt_zero_apply D none _ _ rfl rfl lhs0 lhs1 rhs0 rhs1 p d]
  refine Finset.sum_congr rfl fun x _ => ?_
  rw [onehot_apply]
  show _ * w (ix2 d x) = _
  exact Mask.signedBit_mul _ _ (by have := x.isLt; omega) _

theorem hz : (![0, 0] : Fin 2 → Nat) = fun _ => 0 := funext fun a => by fin_cases a <;> rfl

/-- The block the body stores is the eight runs' products added in order onto 0, plus the bias row on every row. -/
theorem body_eq (x0 : Vec Ideal S1024x1 .i32) (x1 : Vec Ideal S128x8192 .f32) (x2 : Vec Ideal S1x128 .f32) :
    out0_3 (F := Ideal) x0 x1 x2 =
      addf (addf (addf (addf (addf (addf (addf (addf (addf (broadcast S1024x128 (Scalar.ofBits (F := Ideal) .f32 0x00000000#32))
        (oneRun 0 (k0_pay2 x0) (View.ld x1 r0_1))) (oneRun 1024 (k0_pay2 x0) (View.ld x1 r0_2)))
        (oneRun 2048 (k0_pay2 x0) (View.ld x1 r0_3))) (oneRun 3072 (k0_pay2 x0) (View.ld x1 r0_4)))
        (oneRun 4096 (k0_pay2 x0) (View.ld x1 r0_5))) (oneRun 5120 (k0_pay2 x0) (View.ld x1 r0_6)))
        (oneRun 6144 (k0_pay2 x0) (View.ld x1 r0_7))) (oneRun 7168 (k0_pay2 x0) (View.ld x1 r0_8)))
        (broadcastTo S1024x128 (shapeCast S1x128 (shapeCast S1x128 x2 shapeCasts_S1x128_S1x128) shapeCasts_S1x128_S1x128)
          broadcasts_S1x128_S1024x128) := by
  unfold out0_3
  rw [View.canon_unit_zero hz]
  simp only [View.ld_unit_zero (S := S1024x1) hz, View.ld_unit_zero (S := S1x128) hz]
  rfl

/-- A run of W as the body loads it, read at (d, x): W at row d, column x + off. -/
theorem ld_run (off : ℕ) (inb : ∀ a, (![0, off] : Fin 2 → ℕ) a + S128x1024.size a ≤ S128x8192.size a)
    (x1 : Vec Ideal S128x8192 .f32) (d : Fin 128) (x : Fin 1024) (h : x.val + off < 8192) :
    View.ld x1 (Rect.unit (s := S128x8192) ![0, off] S128x1024.size inb) (ix2 d x) = x1 (ix2 d ⟨x.val + off, h⟩) := by
  refine congrArg x1 (funext fun a => Fin.ext ?_)
  match a with
  | ⟨0, _⟩ => show 0 + 1 * d.val = d.val; omega
  | ⟨1, _⟩ => show off + 1 * x.val = x.val + off; omega

/-- Column n of row d of W where the word wd reads n, and 0 elsewhere (0 also past the last column). -/
def col (wd : BitVec 32) (x1 : Vec Ideal S128x8192 .f32) (d : Fin 128) : ℕ → EReal :=
  fun n => if h : n < 8192 then (if wd.toNat = n then x1 (ix2 d ⟨n, h⟩) else 0) else 0

/-- One run's masked sum over the loaded run is the masked sum of W's own columns x + off. -/
theorem run_sum (wd : BitVec 32) (off : ℕ) (hoff : off + 1024 ≤ 8192) (inb : ∀ a, (![0, off] : Fin 2 → ℕ) a + S128x1024.size a ≤ S128x8192.size a)
    (x1 : Vec Ideal S128x8192 .f32) (d : Fin 128) :
    (∑ x : Fin 1024, if wd.toNat = x.val + off then View.ld x1 (Rect.unit (s := S128x8192) ![0, off] S128x1024.size inb) (ix2 d x) else 0)
      = ∑ x : Fin 1024, col wd x1 d (x.val + off) := by
  refine Finset.sum_congr rfl fun x _ => ?_
  have h : x.val + off < 8192 := by have := x.isLt; omega
  show _ = if h : x.val + off < 8192 then (if wd.toNat = x.val + off then x1 (ix2 d ⟨x.val + off, h⟩) else 0) else 0
  rw [dif_pos h, ld_run off inb x1 d x h]

/-- THE BLOCK AT AN ENTRY: entry (p, d) of what the body stores is the sum over all 8192 columns n of W[d, n] where index p
    reads n, plus the bias at d. -/
theorem out_apply (x0 : Vec Ideal S1024x1 .i32) (x1 : Vec Ideal S128x8192 .f32) (x2 : Vec Ideal S1x128 .f32) (j : S1024x128.Idx) :
    out0_3 (F := Ideal) x0 x1 x2 j
      = Cert.Spec.entry (x0 (ix2 (j 0) (0 : Fin 1))) (fun n => x1 (ix2 (j 1) n)) (x2 (ix2 (0 : Fin 1) (j 1))) := by
  obtain ⟨p, d, rfl⟩ : ∃ (p : Fin 1024) (d : Fin 128), j = ix2 p d := ⟨j 0, j 1, eq_ix2 j⟩
  show out0_3 (F := Ideal) x0 x1 x2 (ix2 p d)
      = (∑ n : Fin 8192, if (x0 (ix2 p (0 : Fin 1))).toNat = n.val then x1 (ix2 d n) else 0) + x2 (ix2 (0 : Fin 1) d)
  rw [body_eq]
  simp only [addf_apply, broadcast_apply]
  rw [run_apply 0 (by norm_num), run_apply 1024 (by norm_num), run_apply 2048 (by norm_num), run_apply 3072 (by norm_num),
    run_apply 4096 (by norm_num), run_apply 5120 (by norm_num), run_apply 6144 (by norm_num), run_apply 7168 (by norm_num)]
  have e0 : k0_pay2 (F := Ideal) x0 (ix2 p (0 : Fin 1)) = x0 (ix2 p (0 : Fin 1)) := by
    unfold k0_pay2; rw [shapeCast_self]
  rw [e0, broadcastTo_1b_ab_apply, shapeCast_self, shapeCast_self]
  rw [run_sum _ 0 (by norm_num), run_sum _ 1024 (by norm_num), run_sum _ 2048 (by norm_num), run_sum _ 3072 (by norm_num),
    run_sum _ 4096 (by norm_num), run_sum _ 5120 (by norm_num), run_sum _ 6144 (by norm_num), run_sum _ 7168 (by norm_num)]
  show (((((((((Ideal.ofBits .f32 0x00000000#32 + _) + _) + _) + _) + _) + _) + _) + _) + _) = _
  rw [Ideal.ofBits_zero_f32, Mask.eight_runs (col (x0 (ix2 p (0 : Fin 1))) x1 d)]
  refine congrArg (· + x2 (ix2 (0 : Fin 1) d)) (Finset.sum_congr rfl fun n _ => ?_)
  unfold col
  rw [dif_pos n.isLt]

end Cert.KernelIdeal.Payload

end
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.KernelValue.lean ====
/-
  What the kernel program leaves in its result, as a function of the argument arrays.

  Before the region the host clamps every index to the range from 0 to 8191 and views the 16384 indices as a column, and
  views the bias as one row. Grid point t works on rows 1024·t to 1024·t + 1023: its index block is those rows of the
  column, its weight block the whole matrix, its bias block the whole row, and it writes back rows 1024·t to
  1024·t + 1023 of the [16384, 128] result. By the body's value at an entry, what point t writes back is those rows of
  the lookup of the clamped indices; the sixteen blocks cover the result, so the region leaves exactly that lookup. The
  host then inserts a unit axis.
-/
import proofs.«123506_j56633438765559_2_alg».proof.Proof.Payload
import proofs.«123506_j56633438765559_2_alg».proof.Proof.Spec
import proofs.«123506_j56633438765559_2_alg».proof.Proof.LibUnitColumn
import Idealize.ShloMosaic.Lib.StableHlo.Run
import Idealize.ShloMosaic.Lib.Pipeline.Value
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Idealize.ShloMosaic.ValueIdx

/-! ## The arrays the region finds -/

section Entry

variable {F : FTy → Type} [FloatOps F]
variable (m : (ℓ : Loc nD τ sig) → Buf (Elt F) ℓ)

/-- The index column as the region finds it: the clamped indices viewed as [16384, 1]. -/
theorem V_column (c : Dev nD) :
    (V m c main_v1 : S16384x1.Idx → BitVec 32)
      = shapeCast S16384x1 (minsi (broadcastInDim S16384 ![] bcast_S_S16384 (constantI S_ 32 8191#32))
          (maxsi (broadcastInDim S16384 ![] bcast_S_S16384 (constantI S_ 32 0#32)) (m ((c : Thread nD τ).loc main_arg0))))
          shapeCasts_S16384_S16384x1 := by
  dsimp only [V, V0]
  simp only [hostOps0, hostOps0_1, hostOps0_2, List.flatten_cons, List.flatten_nil, List.append_nil, List.cons_append,
    List.nil_append]
  after_results
  rfl

/-- The bias row as the region finds it: the bias viewed as [1, 128]. -/
theorem V_row (c : Dev nD) :
    (V m c main_v2 : S1x128.Idx → Elt F .f32)
      = shapeCast S1x128 (m ((c : Thread nD τ).loc main_arg2)) shapeCasts_S128_S1x128 := by
  dsimp only [V, V0]
  simp only [hostOps0, hostOps0_1, hostOps0_2, List.flatten_cons, List.flatten_nil, List.append_nil, List.cons_append,
    List.nil_append]
  after_results
  rfl

/-- Entry (r, 0) of the column is index r clamped. -/
theorem V_column_apply (c : Dev nD) (r : Fin 16384) (u : Fin 1) :
    V m c main_v1 (ix2 r u) = IntOp.minsi 8191#32 (IntOp.maxsi 0#32 (m ((c : Thread nD τ).loc main_arg0) (ix1 r))) := by
  rw [V_column, LibUnitColumn.shapeCast_a_a1_apply]
  rfl

/-- Entry (0, d) of the row is the bias at d. -/
theorem V_row_apply (c : Dev nD) (u : Fin 1) (d : Fin 128) :
    V m c main_v2 (ix2 u d) = m ((c : Thread nD τ).loc main_arg2) (ix1 d) := by
  rw [V_row, shapeCast_a_1a_apply]

end Entry

/-! ## The region's result array -/

section Region

variable (m : (ℓ : Loc nD τ sig) → Buf (Elt Ideal) ℓ) (ρ : Dev nD → PrngReg)

/-- The indices clamped to the range from 0 to 8191, entry by entry. -/
def clamped (x : IVec S16384 32) : IVec S16384 32 := fun i => IntOp.minsi 8191#32 (IntOp.maxsi 0#32 (x i))

/-- The array the region leaves: the lookup of the clamped indices in the weights, plus the bias. -/
def rows (c : Dev nD) : FVec Ideal S16384x128 .f32 :=
  Cert.Spec.lookup (clamped (m ((c : Thread nD τ).loc main_arg0))) (m ((c : Thread nD τ).loc main_arg1))
    (m ((c : Thread nD τ).loc main_arg2))

/-- The block indices over the grid: the index column and the result move with the point along the rows, the weights and
    the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 1024·t + p of the array. -/
def row (t : Fin cfg0.N) (p : Fin 1024) : Fin 16384 :=
  ⟨t.val * 1024 + p.val, by have := t.isLt; have := N_0; have := p.isLt; have e : cfg0.N = grid0.N := rfl; omega⟩

/-- WHAT POINT t WRITES BACK is its block of rows of the lookup. -/
theorem flushed_eq (c : Dev nD) (t : Fin cfg0.N) :
    (dats m 0 c).flushed 3 t = ((cfg0.win 3).blk t).view.read (Elt Ideal) (rows m c) := by
  show (cfg0.win 3).cut (grid0.coords t) ((dats m 0 c).after 3 t) = _
  rw [after0_3]
  obtain ⟨e00, e01, e10, e11, e20, e21, e30, e31⟩ := idx_facts t
  funext j
  refine (Payload.out_apply (iblk m c 0 t) (iblk m c 1 t) (iblk m c 2 t) j).trans ?_
  obtain ⟨p, d, rfl⟩ : ∃ (p : Fin 1024) (d : Fin 128), j = ix2 p d := ⟨j 0, j 1, eq_ix2 (n0 := 1024) (n1 := 128) j⟩
  have hp : p.val < 1024 := p.isLt
  have hd : d.val < 128 := d.isLt
  show Cert.Spec.entry (V m c main_v1 (((cfg0.win 0).blk t).view.emb (ix2 p (0 : Fin 1))))
      (fun n => V m c main_arg1 (((cfg0.win 1).blk t).view.emb (ix2 d n)))
      (V m c main_v2 (((cfg0.win 2).blk t).view.emb (ix2 (0 : Fin 1) d)))
    = rows m c (((cfg0.win 3).blk t).view.emb (ix2 p d))
  have h0 : ((cfg0.win 0).blk t).view.emb (ix2 p (0 : Fin 1)) = ix2 (row t p) (0 : Fin 1) := by
    funext a; apply Fin.ext
    match a with
    | ⟨0, _⟩ => show win0_0.index t (0 : Fin 2) * 1024 + 1 * p.val = t.val * 1024 + p.val; omega
    | ⟨1, _⟩ => show win0_0.index t (1 : Fin 2) * 1 + 1 * 0 = 0; omega
  have h1 : ∀ n : Fin 8192, ((cfg0.win 1).blk t).view.emb (ix2 d n) = ix2 d n := by
    intro n; funext a; apply Fin.ext
    match a with
    | ⟨0, _⟩ => show win0_1.index t (0 : Fin 2) * 128 + 1 * d.val = d.val; omega
    | ⟨1, _⟩ => show win0_1.index t (1 : Fin 2) * 8192 + 1 * n.val = n.val; omega
  have h2 : ((cfg0.win 2).blk t).view.emb (ix2 (0 : Fin 1) d) = ix2 (0 : Fin 1) d := by
    funext a; apply Fin.ext
    match a with
    | ⟨0, _⟩ => show win0_2.index t (0 : Fin 2) * 1 + 1 * 0 = 0; omega
    | ⟨1, _⟩ => show win0_2.index t (1 : Fin 2) * 128 + 1 * d.val = d.val; omega
  have h3 : ((cfg0.win 3).blk t).view.emb (ix2 p d) = ix2 (row t p) d := by
    funext a; apply Fin.ext
    match a with
    | ⟨0, _⟩ => show win0_3.index t (0 : Fin 2) * 1024 + 1 * p.val = t.val * 1024 + p.val; omega
    | ⟨1, _⟩ => show win0_3.index t (1 : Fin 2) * 128 + 1 * d.val = d.val; omega
  rw [h0, h2, h3, V_column_apply, V_row_apply]
  simp only [h1, V_main_arg1]
  rfl

/-- An index of the result array is in point t's block iff each coordinate is in the block's range on its axis. -/
theorem mem_blk (t : Fin cfg0.N) (i : S16384x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v3).slice (win0_3.rect t)).set ↔ _
  rw [View.set_slice_whole, Rect.mem_set_unit]
  exact Iff.rfl

/-- Every entry of the result array is in the block of the point that owns its row. -/
theorem cover (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have eN : cfg0.N = 16 := N_0
  let t : Fin cfg0.N := ⟨(i 0).val / 1024, by omega⟩
  obtain ⟨-, -, -, -, -, -, e30, e31⟩ := idx_facts t
  have et : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- THE ARRAY after the region: the lookup of the clamped indices. -/
theorem final (c : Dev nD) : (dats m 0 c).arrAt 3 cfg0.N = rows m c :=
  (dats m 0 c).arrAt_eq_of_cover 3 (rows m c) (fun t _ => flushed_eq m c t) cover

/-! ## The program's result -/

/-- The result buffer after the host's last line: the region's array with a unit axis inserted. -/
theorem tail_eq (c : Dev nD) :
    Pipeline.afterTail₀ cfgs (dats m) 0 (V0 m) [hostOps1] c main_v4
      = broadcastInDim S16384x1x128 ![0, 2] bcast_S16384x128_S16384x1x128_0_2 (rows m c) := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 3
  exact congrArg (broadcastInDim S16384x1x128 ![0, 2] bcast_S16384x128_S16384x1x128_0_2) (e.trans (final m c))

/-- THE RUN: every weakly fair execution of the kernel program terminates with the result at the lookup of the clamped
    indices, a unit axis inserted, and the arguments unchanged. -/
theorem run : θ_run defs (onTc (τ := τ) (main (F := Ideal))) ⟨m, fun _ => 0, ρ⟩ fun r => ∀ c : Dev nD,
      r.2.mem ((c.tc : Thread nD τ).loc main_v4)
        = broadcastInDim S16384x1x128 ![0, 2] bcast_S16384x128_S16384x1x128_0_2 (rows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Region

end Cert.KernelIdeal.KValue

end
-- ==== Proof.RefValue.lean ====
/-
  The reference computes the lookup.

  The reference builds the one-hot matrix (row r has a 1 in column idx[r], by comparing idx[r] with the column number),
  multiplies it with the transposed weights and adds the bias. Entry (r, d) of the product is the sum over the columns n
  of (1 if idx[r] reads n else 0) · W[d, n]; each factor times W[d, n] is W[d, n] or 0, which is the masked sum.
-/
import proofs.«123506_j56633438765559_2_alg».proof.Proof.Gen.ReferenceIdeal.Read
import proofs.«123506_j56633438765559_2_alg».proof.Proof.Mask
import proofs.«123506_j56633438765559_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The sum of product and bias, before the unit axis is inserted, is the lookup of the argument arrays. -/
theorem sum_eq_lookup (x0 : IVec S16384 32) (x1 : FVec Ideal S128x8192 .f32) (x2 : FVec Ideal S128 .f32) :
    val_main_v4 (F := Ideal) x0 x1 x2 = Cert.Spec.lookup x0 x1 x2 := by
  funext i
  obtain ⟨r, d, rfl⟩ : ∃ (r : Fin 16384) (d : Fin 128), i = ix2 r d := ⟨i 0, i 1, eq_ix2 i⟩
  rw [val_main_v4_apply, val_main_v1_apply, val_main_v3_apply, val_main_v2_apply, Cert.Spec.lookup_apply]
  have eb : idx_main_v2 (idx_main_v3 (ix2 r d)) = ix1 d :=
    funext fun a => Fin.ext (by match a with | ⟨0, _⟩ => rfl)
  rw [eb]
  show _ + _ = _ + _
  congr 1
  refine Finset.sum_congr rfl fun n _ => ?_
  rw [val_main_v0_apply, val_main_call0_v4_apply, val_main_call0_v2_apply, val_main_call0_v0_apply,
    val_main_call0_v3_apply, val_main_call0_v1_apply]
  have ei : idx_main_call0_v0 (idx_main_call0_v2 (lidx_main_v1 (ix2 r d) n)) = ix1 r :=
    funext fun a => Fin.ext (by match a with | ⟨0, _⟩ => rfl)
  have ew : ridx_main_v1 (ix2 r d) n = ix2 d n :=
    funext fun a => Fin.ext (by match a with | ⟨0, _⟩ => rfl | ⟨1, _⟩ => rfl)
  rw [ei, ew]
  show (((IntOp.cmpi .eq (x0 (ix1 r)) (BitVec.ofNat 32 n.val)).toNat : ℝ) : EReal) * x1 (ix2 d n) = _
  exact Cert.Mask.unsignedBit_mul _ _ (by have := n.isLt; omega) _

/-- The reference's result: the lookup of the argument arrays with a unit axis inserted. -/
theorem result_eq_lookup (x0 : IVec S16384 32) (x1 : FVec Ideal S128x8192 .f32) (x2 : FVec Ideal S128 .f32) :
    val_main_v5 (F := Ideal) x0 x1 x2
      = broadcastInDim S16384x1x128 ![0, 2] bcast_S16384x128_S16384x1x128_0_2 (Cert.Spec.lookup x0 x1 x2) := by
  unfold val_main_v5
  rw [sum_eq_lookup]

end Cert.ReferenceIdeal.RefValue

end
-- ==== Proof.PreRange.lean ====
/-
  What the precondition says of the indices.

  The precondition is a conjunction of three "all entries satisfy ..." tests; its last conjunct says that every index,
  read as a signed integer, is at least 0 and below 8192. A conjunction that is 1 has both conjuncts 1, and an
  and-reduction over all entries that is 1 met only 1s, so each index passes both comparisons.
-/
import proofs.«123506_j56633438765559_2_alg».proof.Proof.Gen.Pre_finite_inputs
import Idealize.ShloMosaic.Lib.ReduceAll
import Idealize.ShloMosaic.Lib.ValueIdx

noncomputable section

namespace Cert.Pre_finite_inputs.Range

open Cert.Pre_finite_inputs Cert.Pre_finite_inputs.Gen
open Idealize.ShloMosaic Idealize.ShloMosaic.ValueIdx

/-- The shape with no axes has one index. -/
instance : Subsingleton S_.Idx := ⟨fun a b => funext fun d => d.elim0⟩

/-- Under the precondition every index passes "at least 0" and "below 8192", both read signed. -/
theorem index_range {F : FTy → Type} [FloatOps F] (a0 : IVec S16384 32) (a1 : FVec F S128x8192 .f32) (a2 : FVec F S128 .f32)
    (h : fn (F := F) a0 a1 a2 = fun _ => 1#1) (i : S16384.Idx) :
    IntOp.cmpi .sge (a0 i) 0#32 = 1#1 ∧ IntOp.cmpi .slt (a0 i) 8192#32 = 1#1 := by
  have h0 := congrFun h ix0
  dsimp only [fn] at h0
  have h1 := (IntOp.andi_eq_one.mp h0).2
  have h2 := Host.reduce_andi_all _ _ _ _ _ h1 i
  exact IntOp.andi_eq_one.mp h2

end Cert.Pre_finite_inputs.Range

end
-- ==== Proof.lean ====
/-
  An embedding lookup: row r of the result is column idx[r] of the weight matrix W plus the bias b, with a unit axis
  inserted: out[r, 0, d] = W[d, idx[r]] + b[d], for 16384 indices, 8192 columns and 128 rows of W.

  The reference multiplies the one-hot matrix of the indices with the transposed weights in one product of 8192 terms
  per entry. The kernel first clamps every index to the range from 0 to 8191, then, for each block of 1024 indices, adds
  eight products of 1024 terms each (one per run of 1024 columns of W, against the 0/1 matrix of the indices compared
  with that run's column numbers), and adds the bias. Every term of either product is W[d, n] or 0, so both entries are
  the same sum of 8192 terms in a different grouping, which is the same number on the extended reals with no condition
  on W or b. The two programs differ only through the clamp, which changes nothing on an index between 0 and 8191: the
  precondition asks exactly that of every index (a one-hot row of an index outside that range is all zeros, while the
  clamped index selects column 0 or 8191).

  The three programs' runs and unchanged arguments come from the generated frame and run modules; the kernel keeps its
  own idealization (no operation of it was rewritten).
-/
import proofs.«123506_j56633438765559_2_alg».proof.Defs
import proofs.«123506_j56633438765559_2_alg».proof.Proof.Gen.Kernel
import proofs.«123506_j56633438765559_2_alg».proof.Proof.Gen.Kernel.Skeleton
import proofs.«123506_j56633438765559_2_alg».proof.Proof.Gen.Kernel.Launch
import proofs.«123506_j56633438765559_2_alg».proof.Proof.Gen.Kernel.Points
import proofs.«123506_j56633438765559_2_alg».proof.Proof.Gen.Kernel.Frame
import proofs.«123506_j56633438765559_2_alg».proof.Proof.Gen.KernelIdeal
import proofs.«123506_j56633438765559_2_alg».proof.Proof.Gen.KernelIdeal.Skeleton
import proofs.«123506_j56633438765559_2_alg».proof.Proof.Gen.KernelIdeal.Launch
import proofs.«123506_j56633438765559_2_alg».proof.Proof.Gen.KernelIdeal.Points
import proofs.«123506_j56633438765559_2_alg».proof.Proof.Gen.KernelIdeal.Frame
import proofs.«123506_j56633438765559_2_alg».proof.Proof.Gen.ReferenceIdeal
import proofs.«123506_j56633438765559_2_alg».proof.Proof.Gen.Pre_finite_inputs
import proofs.«123506_j56633438765559_2_alg».proof.Proof.Gen.ReferenceIdeal.Run
import proofs.«123506_j56633438765559_2_alg».proof.Proof.Gen.ReferenceIdeal.Read
import proofs.«123506_j56633438765559_2_alg».proof.Proof.KernelValue
import proofs.«123506_j56633438765559_2_alg».proof.Proof.RefValue
import proofs.«123506_j56633438765559_2_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Under the precondition the clamp changes no index. -/
theorem clamped_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.KValue.clamped (m ((c.tc : Thread Cert.KernelIdeal.nD Cert.KernelIdeal.τ).loc Cert.KernelIdeal.main_arg0))
      = m ((c.tc : Thread Cert.KernelIdeal.nD Cert.KernelIdeal.τ).loc Cert.KernelIdeal.main_arg0) :=
  funext fun i => Cert.Mask.clamp_id _
    (Cert.Pre_finite_inputs.Range.index_range _ _ _ (hpre c) i).1 (Cert.Pre_finite_inputs.Range.index_range _ _ _ (hpre c) i).2

/-- Under the precondition the array the kernel's region leaves is the lookup of the indices themselves. -/
theorem rows_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.KValue.rows m c
      = Cert.Spec.lookup (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  unfold Cert.KernelIdeal.KValue.rows
  rw [clamped_eq m hpre c]

/-- Both programs end at the lookup of the indices, a unit axis inserted: the kernel at the lookup of the clamped
    indices, which under the precondition are the indices; the reference at its product plus bias, which is the
    lookup. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨?_, (h c).2⟩)
    (Cert.ReferenceIdeal.Value.run (F := Ideal) m' ρ')
  refine (h c).1.trans ?_
  refine (Cert.ReferenceIdeal.Read.val_main_v5_eq _ _ _).trans ?_
  refine (Cert.ReferenceIdeal.RefValue.result_eq_lookup _ _ _).trans ?_
  rw [(hagree c).1, (hagree c).2.1, (hagree c).2.2, rows_eq m hpre c]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
